-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S16x32 : Shape := ⟨2, ![16, 32]⟩
abbrev S1048576 : Shape := ⟨1, ![1048576]⟩
abbrev S192x64 : Shape := ⟨2, ![192, 64]⟩
abbrev S64 : Shape := ⟨1, ![64]⟩
abbrev S64x64 : Shape := ⟨2, ![64, 64]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S192x64 .f32) (main_arg6 : FVec F S64 .f32) (main_arg7 : FVec F S64x64 .f32) (main_arg8 : FVec F S64 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S192x64 .f32 := Host.absf main_arg5
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_v33

def fn {F : FTy → Type} [FloatOps F] (main_arg0 : FVec F S1048576x64 .f32) (main_arg1 : FVec F S1048576x64 .f32) (main_arg2 : FVec F S1048576x64 .f32) (main_arg3 : FVec F S16x32 .f32) (main_arg4 : IVec S1048576 32) (main_arg5 : FVec F S192x64 .f32) (main_arg6 : FVec F S64 .f32) (main_arg7 : FVec F S64x64 .f32) (main_arg8 : FVec F S64 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S1048576x64 .f32 := Host.absf main_arg1
  let main_cst_0 : FVec F S_ .f32 := constant S_ .f32 0x7F800000#32
  let main_v5 : FVec F S1048576x64 .f32 := broadcastInDim S1048576x64 ![] bcast_S_S1048576x64 main_cst_0
  let main_v6 : IVec S1048576x64 1 := cmpf .olt main_v4 main_v5
  let main_c_1 : IVec S_ 1 := constantI S_ 1 1#1
  let main_v7 : IVec S_ 1 := (fun x v => Host.reduce IntOp.andi x v reducesTo_S1048576x64_S_d0_1 h_S_) main_v6 main_c_1
  let main_v8 : IVec S_ 1 := andi main_v3 main_v7
  let main_v9 : FVec F S1048576x64 .f32 := Host.absf main_arg2
  let main_cst_2 : FVec F S_ .f32 := constant S_ .f32 0x7F800000#32
  let main_v10 : FVec F S1048576x64 .f32 := broadcastInDim S1048576x64 ![] bcast_S_S1048576x64 main_cst_2
  let main_v11 : IVec S1048576x64 1 := cmpf .olt main_v9 main_v10
  let main_c_3 : IVec S_ 1 := constantI S_ 1 1#1
  let main_v12 : IVec S_ 1 := (fun x v => Host.reduce IntOp.andi x v reducesTo_S1048576x64_S_d0_1 h_S_) main_v11 main_c_3
  let main_v13 : IVec S_ 1 := andi main_v8 main_v12
  let main_v14 : FVec F S16x32 .f32 := Host.absf main_arg3
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg5 main_arg6 main_arg7 main_arg8 main_v13 main_v16
-- ==== Kernel.lean ====
abbrev S1048576x64 : Shape := ⟨2, ![1048576, 64]⟩
abbrev S16x32 : Shape := ⟨2, ![16, 32]⟩
abbrev S1048576 : Shape := ⟨1, ![1048576]⟩
abbrev S192x64 : Shape := ⟨2, ![192, 64]⟩
abbrev S64 : Shape := ⟨1, ![64]⟩
abbrev S64x64 : Shape := ⟨2, ![64, 64]⟩
abbrev S1x64 : Shape := ⟨2, ![1, 64]⟩
abbrev S8192x64 : Shape := ⟨2, ![8192, 64]⟩

abbrev nBuf : Space → Nat
  | .hbm => 12
  | .vmem => 12
  | .smem => 0
  | _ => 0

abbrev bufTy : (tb : Table) → Fin (tcTables nBuf tb) → BufTy
  | .hbm, ⟨0, _⟩ => ⟨S1048576x64, .f32⟩
  | .hbm, ⟨1, _⟩ => ⟨S1048576x64, .f32⟩
  | .hbm, ⟨2, _⟩ => ⟨S1048576x64, .f32⟩
  | .hbm, ⟨3, _⟩ => ⟨S16x32, .f32⟩
  | .hbm, ⟨4, _⟩ => ⟨S1048576, .i32⟩
  | .hbm, ⟨5, _⟩ => ⟨S192x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x64, .f32⟩
  | .hbm, ⟨10, _⟩ => ⟨S1x64, .f32⟩
  | .hbm, ⟨11, _⟩ => ⟨S1048576x64, .f32⟩
  | .local _ .vmem, ⟨0, _⟩ => ⟨S8192x64, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S8192x64, .f32⟩
  | .local _ .vmem, ⟨5, _⟩ => ⟨S8192x64, .f32⟩
  | .local _ .vmem, ⟨6, _⟩ => ⟨S192x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S8192x64, .f32⟩
  | .local _ .vmem, ⟨11, _⟩ => ⟨S8192x64, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64_S1x64 : S64.ShapeCasts S1x64
  inb_S8192x64_S8192x64_0_0 : ∀ a, (![0, 0] : Fin 2 → Nat) a + S8192x64.size a ≤ S8192x64.size a
  h_S8192x64 : 0 < S8192x64.numel
  bitsLt_bf16_f32 : FTy.bits .bf16 < FTy.bits .f32
  inb_S192x64_S64x64_0_0 : ∀ a, (![0, 0] : Fin 2 → Nat) a + S64x64.size a ≤ S192x64.size a
  h_S64x64 : 0 < S64x64.numel
  inb_S192x64_S64x64_64_0 : ∀ a, (![64, 0] : Fin 2 → Nat) a + S64x64.size a ≤ S192x64.size a
  inb_S192x64_S64x64_128_0 : ∀ a, (![128, 0] : Fin 2 → Nat) a + S64x64.size a ≤ S192x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S64x64_S64x64_0_0 : ∀ a, (![0, 0] : Fin 2 → Nat) a + S64x64.size a ≤ S64x64.size a
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S1048576x64.size a
  hwx0_0 : ∀ i : grid0.Coords, EltTy.bits .f32 = 32 ∨ (Rect.block (s := S1048576x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S1048576x64.size a
  hwx0_1 : ∀ i : grid0.Coords, EltTy.bits .f32 = 32 ∨ (Rect.block (s := S1048576x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S1048576x64.size a
  hwx0_2 : ∀ i : grid0.Coords, EltTy.bits .f32 = 32 ∨ (Rect.block (s := S1048576x64) S8192x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x64.size a ≤ S192x64.size a
  hwx0_3 : ∀ i : grid0.Coords, EltTy.bits .f32 = 32 ∨ (Rect.block (s := S192x64) S192x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x64.size a ≤ S1048576x64.size a
  hwx0_7 : ∀ i : grid0.Coords, EltTy.bits .f32 = 32 ∨ (Rect.block (s := S1048576x64) S8192x64.size (cc0_transform_7 i) (hinb0_7 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S192x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S8192x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S16x32 : Shape := ⟨2, ![16, 32]⟩
abbrev S1048576 : Shape := ⟨1, ![1048576]⟩
abbrev S192x64 : Shape := ⟨2, ![192, 64]⟩
abbrev S64 : Shape := ⟨1, ![64]⟩
abbrev S64x64 : Shape := ⟨2, ![64, 64]⟩
abbrev S1048576x192 : Shape := ⟨2, ![1048576, 192]⟩
abbrev S1x64 : Shape := ⟨2, ![1, 64]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S1048576x64, .f32⟩
  | .hbm, ⟨2, _⟩ => ⟨S1048576x64, .f32⟩
  | .hbm, ⟨3, _⟩ => ⟨S16x32, .f32⟩
  | .hbm, ⟨4, _⟩ => ⟨S1048576, .i32⟩
  | .hbm, ⟨5, _⟩ => ⟨S192x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1048576x192, .f32⟩
  | .hbm, ⟨10, _⟩ => ⟨S1048576x64, .f32⟩
  | .hbm, ⟨11, _⟩ => ⟨S1x64, .f32⟩
  | .hbm, ⟨12, _⟩ => ⟨S1048576x64, .f32⟩
  | .hbm, ⟨13, _⟩ => ⟨S1048576x64, .f32⟩
  | .hbm, ⟨14, _⟩ => ⟨S_, .f32⟩
  | .hbm, ⟨15, _⟩ => ⟨S1048576x64, .f32⟩
  | .hbm, ⟨16, _⟩ => ⟨S1048576x64, .f32⟩
  | .hbm, ⟨17, _⟩ => ⟨S1048576x64, .f32⟩
  | .hbm, ⟨18, _⟩ => ⟨S1x64, .f32⟩
  | .hbm, ⟨19, _⟩ => ⟨S1048576x64, .f32⟩
  | .hbm, ⟨20, _⟩ => ⟨S1048576x64, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]

class Facts₀ : Prop where
  concatenates_S1048576x64_S1048576x64_S1048576x64_S1048576x192_d1 : Shape.Concatenates [S1048576x64, S1048576x64, S1048576x64] S1048576x192 1
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  dot_S1048576x192_S192x64_S1048576x64_1_0_0_1_n_n_wf : DotDims.WF S1048576x192 S192x64 S1048576x64 [1] [0] [0] [1] [] []
  dot_S1048576x64_S64x64_S1048576x64_1_0_0_1_n_n_wf : DotDims.WF S1048576x64 S64x64 S1048576x64 [1] [0] [0] [1] [] []

variable [Facts₀]

def dot_S1048576x192_S192x64_S1048576x64_1_0_0_1_n_n : DotDims S1048576x192 S192x64 S1048576x64 where
  lhsContracting := [1]
  rhsContracting := [0]
  lhsNonContracting := [0]
  rhsNonContracting := [1]
  lhsBatch := []
  rhsBatch := []
  wf := dot_S1048576x192_S192x64_S1048576x64_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf

class Facts : Prop extends Facts₀ where

variable [Facts]
-- ==== Proof.LibThreeRuns.lean ====
/-
  A sum over three equal runs of positions.

  In any commutative monoid a sum over `a + a + a` positions is the sum over the first `a`, plus the sum over the next
  `a`, plus the sum over the last `a`: position `k` of the second run is `a + k`, of the third `a + a + k`.  This is what
  turns one inner product of a row joined from three pieces of `a` entries into three inner products.  Mathlib only.
-/
import Mathlib.Algebra.BigOperators.Fin

namespace Cert.LibThreeRuns

open scoped BigOperators

/-- A sum over `a + a + a` positions is the sum of its three runs of `a` positions. -/
theorem sum_three_runs {M : Type*} [AddCommMonoid M] (a : ℕ) (g : Fin (a + a + a) → M) :
    ∑ j, g j = (∑ k : Fin a, g ⟨k.val, by have := k.isLt; omega⟩ + ∑ k : Fin a, g ⟨a + k.val, by have := k.isLt; omega⟩)
      + ∑ k : Fin a, g ⟨a + a + k.val, by have := k.isLt; omega⟩ := by
  rw [Fin.sum_univ_add, Fin.sum_univ_add]
  rfl

end Cert.LibThreeRuns
-- ==== Proof.EdgeRows.lean ====
/-
  One edge of the edge model, as a function on the extended reals.

  An edge carries three feature rows `s`, `d`, `e` of 64 entries each.  The first layer has 64 hidden units; unit `h` adds
  to its bias `b1 h` the inner products of the three rows with three 64 x 64 blocks `A`, `B`, `C` of weights, and is then
  rectified against a threshold `z`; the second layer maps the 64 rectified units through `W2` and adds `b2`.

  The first layer can be written two ways: the three inner products added one after the other, the bias joining after
  the first (`pre`), or one inner product of the joined row of 192 entries with the 192 x 64 matrix whose row blocks
  are `A`, `B`, `C`, the bias last (`preJoined`).  The two agree on the extended reals because a sum over 192 positions
  is the sum of its three runs of 64, and addition there is commutative and associative (no cancellation is used, so
  infinite entries do no harm).
-/
import Idealize.ShloMosaic.PureOps.Ideal
import Idealize.ShloMosaic.Lib.ValueIdx
import proofs.«140469_j7060926234898_2_alg».proof.Proof.LibThreeRuns

noncomputable section

namespace Cert.EdgeRows

open Idealize.ShloMosaic Idealize.ShloMosaic.ValueIdx
open scoped BigOperators

/-- Position `k` of the first, second, third run of 64 among 192 positions. -/
abbrev run0 (k : Fin 64) : Fin 192 := ⟨k.val, by have := k.isLt; omega⟩
abbrev run1 (k : Fin 64) : Fin 192 := ⟨64 + k.val, by have := k.isLt; omega⟩
abbrev run2 (k : Fin 64) : Fin 192 := ⟨128 + k.val, by have := k.isLt; omega⟩

/-- A sum over 192 positions is the sum of its three runs of 64. -/
theorem sum_192 {M : Type*} [AddCommMonoid M] (g : Fin 192 → M) :
    ∑ j, g j = (∑ k : Fin 64, g (run0 k) + ∑ k : Fin 64, g (run1 k)) + ∑ k : Fin 64, g (run2 k) :=
  Cert.LibThreeRuns.sum_three_runs 64 g

/-- Hidden unit `h` before the rectifier, the three inner products added in turn, the bias after the first. -/
def pre (s d e : Fin 64 → EReal) (A B C : Fin 64 → Fin 64 → EReal) (b1 : Fin 64 → EReal) (h : Fin 64) : EReal :=
  ((∑ k, s k * A k h + b1 h) + ∑ k, d k * B k h) + ∑ k, e k * C k h

/-- Hidden unit `h` before the rectifier, as one inner product of the joined row with the whole first-layer matrix. -/
def preJoined (x : Fin 192 → EReal) (W : Fin 192 → Fin 64 → EReal) (b1 : Fin 64 → EReal) (h : Fin 64) : EReal :=
  (∑ j, x j * W j h) + b1 h

/-- The two spellings of the first layer agree: split the sum over 192 into its three runs, move the bias forward. -/
theorem preJoined_eq (x : Fin 192 → EReal) (W : Fin 192 → Fin 64 → EReal) (b1 : Fin 64 → EReal) (h : Fin 64) :
    preJoined x W b1 h
      = pre (fun k => x (run0 k)) (fun k => x (run1 k)) (fun k => x (run2 k))
          (fun k h => W (run0 k) h) (fun k h => W (run1 k) h) (fun k h => W (run2 k) h) b1 h := by
  unfold preJoined pre
  rw [sum_192 (fun j => x j * W j h)]
  rw [add_right_comm (_ + _) _ (b1 h), add_right_comm _ _ (b1 h)]

/-- Output `f` of one edge: the rectified hidden units through the second layer, plus its bias. -/
def out (s d e : Fin 64 → EReal) (A B C : Fin 64 → Fin 64 → EReal) (b1 : Fin 64 → EReal) (z : EReal)
    (W2 : Fin 64 → Fin 64 → EReal) (b2 : Fin 64 → EReal) (f : Fin 64) : EReal :=
  (∑ h, max (pre s d e A B C b1 h) z * W2 h f) + b2 f

/-- The same output from the joined row and the whole first-layer matrix. -/
def outJoined (x : Fin 192 → EReal) (W : Fin 192 → Fin 64 → EReal) (b1 : Fin 64 → EReal) (z : EReal)
    (W2 : Fin 64 → Fin 64 → EReal) (b2 : Fin 64 → EReal) (f : Fin 64) : EReal :=
  (∑ h, max (preJoined x W b1 h) z * W2 h f) + b2 f

theorem outJoined_eq (x : Fin 192 → EReal) (W : Fin 192 → Fin 64 → EReal) (b1 : Fin 64 → EReal) (z : EReal)
    (W2 : Fin 64 → Fin 64 → EReal) (b2 : Fin 64 → EReal) (f : Fin 64) :
    outJoined x W b1 z W2 b2 f
      = out (fun k => x (run0 k)) (fun k => x (run1 k)) (fun k => x (run2 k))
          (fun k h => W (run0 k) h) (fun k h => W (run1 k) h) (fun k h => W (run2 k) h) b1 z W2 b2 f := by
  unfold outJoined out
  simp only [preJoined_eq]

/-- The whole result, one row per edge: entry `(p, f)` is output `f` of edge `p`, whose three feature rows are rows `p`
    of `src`, `dest`, `edge`, the first layer's three blocks the row blocks of `W1`, the threshold the zero word. -/
def table (src dest edge : (⟨2, ![1048576, 64]⟩ : Shape).Idx → EReal) (W1 : (⟨2, ![192, 64]⟩ : Shape).Idx → EReal)
    (b1 : Fin 64 → EReal) (W2 : (⟨2, ![64, 64]⟩ : Shape).Idx → EReal) (b2 : Fin 64 → EReal)
    (p : Fin 1048576) (f : Fin 64) : EReal :=
  out (fun k => src (ix2 p k)) (fun k => dest (ix2 p k)) (fun k => edge (ix2 p k))
    (fun k h => W1 (ix2 (run0 k) h)) (fun k h => W1 (ix2 (run1 k) h)) (fun k h => W1 (ix2 (run2 k) h)) b1
    (Ideal.ofBits .f32 0x00000000#32) (fun h f => W2 (ix2 h f)) b2 f

/-- The table as a function of the result's index. -/
def tableAt (src dest edge : (⟨2, ![1048576, 64]⟩ : Shape).Idx → EReal) (W1 : (⟨2, ![192, 64]⟩ : Shape).Idx → EReal)
    (b1 : Fin 64 → EReal) (W2 : (⟨2, ![64, 64]⟩ : Shape).Idx → EReal) (b2 : Fin 64 → EReal) :
    (⟨2, ![1048576, 64]⟩ : Shape).Idx → EReal :=
  fun i => table src dest edge W1 b1 W2 b2 ⟨(i 0).val, idx2_lt0 i⟩ ⟨(i 1).val, idx2_lt1 i⟩

theorem tableAt_apply (src dest edge : (⟨2, ![1048576, 64]⟩ : Shape).Idx → EReal) (W1 : (⟨2, ![192, 64]⟩ : Shape).Idx → EReal)
    (b1 : Fin 64 → EReal) (W2 : (⟨2, ![64, 64]⟩ : Shape).Idx → EReal) (b2 : Fin 64 → EReal) (p : Fin 1048576) (f : Fin 64) :
    tableAt src dest edge W1 b1 W2 b2 (ix2 p f) = table src dest edge W1 b1 W2 b2 p f := rfl

end Cert.EdgeRows

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.BodyRows.lean ====
/-
  What the kernel's body computes for one row of its block.

  At a grid point the body holds blocks of 8192 edges: the three feature blocks, the first layer's three 64 x 64 weight
  blocks and its bias row, the second layer's matrix and bias row.  It multiplies each feature block by its weight block
  into a zero accumulator, adds the bias row after the first product and the other two products after that, rectifies
  against zero, multiplies by the second-layer matrix into zero and adds the second bias row.  On the extended reals a
  change of float format is the identity and a matrix product into zero is the plain sum of products, so entry
  `(r, f)` of the stored block is output `f` of the edge in row `r` (`EdgeRows.out`).
-/
import proofs.«140469_j7060926234898_2_alg».proof.Proof.Gen.KernelIdeal.Skeleton
import proofs.«140469_j7060926234898_2_alg».proof.Proof.EdgeRows
import proofs.«140469_j7060926234898_2_alg».proof.Proof.LibInnerProducts
import Idealize.ShloMosaic.Lib.ValueLayout
import Idealize.ShloMosaic.Lib.Pipeline.Value

noncomputable section

namespace Cert.KernelIdeal.BodyRows

open Cert.KernelIdeal Cert.KernelIdeal.Gen Idealize.ShloMosaic Idealize.ShloMosaic.ValueIdx Cert.EdgeRows
open scoped BigOperators

/-- The body's matrix products contract the left factor's columns with the right factor's rows, nothing else. -/
theorem dims_plain : dot_S8192x64_S64x64_S8192x64_1_0_0_1_n_n = DotDims.plain 8192 64 64 := rfl

/-- Entry `(r, f)` of the block the body stores is output `f` of the edge whose feature rows are rows `r` of the three
    feature blocks. -/
theorem payload_apply (v0 v2 v4 : Vec Ideal S8192x64 .f32) (v6 v8 v10 : Vec Ideal S64x64 .f32) (v13 : Vec Ideal S1x64 .f32)
    (v24 : Vec Ideal S64x64 .f32) (v27 : Vec Ideal S1x64 .f32) (r : Fin 8192) (f : Fin 64) :
    k0_pay1 (F := Ideal) v0 v2 v4 v6 v8 v10 v13 v24 v27 (ix2 r f)
      = out (fun k => v0 (ix2 r k)) (fun k => v2 (ix2 r k)) (fun k => v4 (ix2 r k))
          (fun k h => v6 (ix2 k h)) (fun k h => v8 (ix2 k h)) (fun k h => v10 (ix2 k h)) (fun h => v13 (ix2 (0 : Fin 1) h))
          (Ideal.ofBits .f32 0x00000000#32) (fun h f => v24 (ix2 h f)) (fun f => v27 (ix2 (0 : Fin 1) f)) f := by
  unfold k0_pay1 out pre
  simp only [addf_apply, shapeCast_self]
  rw [InnerProducts.matmul_zero_apply _ dims_plain, broadcastTo_1b_ab_apply]
  congr 1
  refine Finset.sum_congr rfl fun h _ => ?_
  simp only [truncf_apply, maximumf_apply, addf_apply, broadcast_apply]
  rw [InnerProducts.matmul_zero_apply _ dims_plain, InnerProducts.matmul_zero_apply _ dims_plain,
    InnerProducts.matmul_zero_apply _ dims_plain, broadcastTo_1b_ab_apply]
  rfl

end Cert.KernelIdeal.BodyRows

end
-- ==== Proof.Blocks.lean ====
/-
  From the blocks the grid points write to the whole result array.

  The grid has 128 points.  Point `t` reads rows `8192 t` to `8192 t + 8191` of each of the three feature arrays, the whole
  first-layer matrix, the whole second-layer matrix and the two bias rows, and writes rows `8192 t` to `8192 t + 8191` of
  the result.  Entry `(r, f)` of what it writes is output `f` of the edge in row `r` of its blocks (`BodyRows`), that is
  of edge `8192 t + r` of the arrays: the block point `t` writes is block `t` of one table of edges.  Every row lies in the
  block of the point `row / 8192`, so the blocks cover the result and the array ends as that table.  The two bias rows are
  the bias vectors given a leading axis of extent one before the grid starts.
-/
import proofs.«140469_j7060926234898_2_alg».proof.Proof.Gen.KernelIdeal.Value
import proofs.«140469_j7060926234898_2_alg».proof.Proof.BodyRows
import Idealize.ShloMosaic.Lib.StableHlo.Run
import Idealize.ShloMosaic.Lib.ValueLayout

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.EdgeRows
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-- The table of edges over arrays whose two biases are rows `[1, 64]`, at an index of the result. -/
def tableRows (a0 a1 a2 : S1048576x64.Idx → EReal) (a5 : S192x64.Idx → EReal) (r4 : S1x64.Idx → EReal)
    (a7 : S64x64.Idx → EReal) (r6 : S1x64.Idx → EReal) : S1048576x64.Idx → EReal :=
  tableAt a0 a1 a2 a5 (fun h => r4 (ix2 (0 : Fin 1) h)) a7 (fun f => r6 (ix2 (0 : Fin 1) f))

/-! ## Where each window's block sits -/

/-- The printed index maps over the grid: the three feature windows and the result window move down one block of rows
    per point; the weights and the bias rows stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 128 := lt_of_lt_of_eq t.isLt N_0

/-- Row `r` of point `t`'s block of rows is row `8192 t + r` of the array. -/
abbrev rowAt (t : Fin cfg0.N) (r : Fin 8192) : Fin 1048576 :=
  ⟨t.val * 8192 + r.val, by have := point_lt t; have := r.isLt; omega⟩

/-- Entry `(r, k)` of point `t`'s block of the first feature array is entry `(8192 t + r, k)` of the array. -/
theorem emb0 (t : Fin cfg0.N) (r : Fin 8192) (k : Fin 64) :
    ((cfg0.win 0).blk t).view.emb (ix2 r k) = ix2 (rowAt t r) k := by
  obtain ⟨e0, e1, -⟩ := idx_facts t
  funext a; apply Fin.ext
  match a with
  | ⟨0, _⟩ => show win0_0.index t (0 : Fin 2) * 8192 + 1 * r.val = t.val * 8192 + r.val; rw [e0]; omega
  | ⟨1, _⟩ => show win0_0.index t (1 : Fin 2) * 64 + 1 * k.val = k.val; rw [e1]; omega

/-- The same for the result window. -/
theorem emb7 (t : Fin cfg0.N) (r : Fin 8192) (f : Fin 64) :
    ((cfg0.win 7).blk t).view.emb (ix2 r f) = ix2 (rowAt t r) f := by
  obtain ⟨-, -, -, -, -, -, -, -, -, -, -, -, -, -, e0, e1⟩ := idx_facts t
  funext a; apply Fin.ext
  match a with
  | ⟨0, _⟩ => show win0_7.index t (0 : Fin 2) * 8192 + 1 * r.val = t.val * 8192 + r.val; rw [e0]; omega
  | ⟨1, _⟩ => show win0_7.index t (1 : Fin 2) * 64 + 1 * f.val = f.val; rw [e1]; omega

/-- Row `r` of point `t`'s block of the first feature array is row `8192 t + r` of the array as the grid finds it. -/
theorem read0 (c : Dev nD) (t : Fin cfg0.N) (r : Fin 8192) (k : Fin 64) :
    iblk m c 0 t (ix2 r k) = V m c main_arg0 (ix2 (rowAt t r) k) := by
  show V m c main_arg0 (((cfg0.win 0).blk t).view.emb (ix2 r k)) = _
  rw [emb0]

theorem emb1 (t : Fin cfg0.N) (r : Fin 8192) (k : Fin 64) :
    ((cfg0.win 1).blk t).view.emb (ix2 r k) = ix2 (rowAt t r) k := by
  obtain ⟨-, -, e0, e1, -⟩ := idx_facts t
  funext a; apply Fin.ext
  match a with
  | ⟨0, _⟩ => show win0_1.index t (0 : Fin 2) * 8192 + 1 * r.val = t.val * 8192 + r.val; rw [e0]; omega
  | ⟨1, _⟩ => show win0_1.index t (1 : Fin 2) * 64 + 1 * k.val = k.val; rw [e1]; omega

theorem emb2 (t : Fin cfg0.N) (r : Fin 8192) (k : Fin 64) :
    ((cfg0.win 2).blk t).view.emb (ix2 r k) = ix2 (rowAt t r) k := by
  obtain ⟨-, -, -, -, e0, e1, -⟩ := idx_facts t
  funext a; apply Fin.ext
  match a with
  | ⟨0, _⟩ => show win0_2.index t (0 : Fin 2) * 8192 + 1 * r.val = t.val * 8192 + r.val; rw [e0]; omega
  | ⟨1, _⟩ => show win0_2.index t (1 : Fin 2) * 64 + 1 * k.val = k.val; rw [e1]; omega

/-- The first-layer matrix's one block is the whole matrix. -/
theorem emb3 (t : Fin cfg0.N) (j : Fin 192) (h : Fin 64) :
    ((cfg0.win 3).blk t).view.emb (ix2 j h) = ix2 j h := by
  obtain ⟨-, -, -, -, -, -, e0, e1, -⟩ := idx_facts t
  funext a; apply Fin.ext
  match a with
  | ⟨0, _⟩ => show win0_3.index t (0 : Fin 2) * 192 + 1 * j.val = j.val; rw [e0]; omega
  | ⟨1, _⟩ => show win0_3.index t (1 : Fin 2) * 64 + 1 * h.val = h.val; rw [e1]; omega

/-- The first bias row's one block is the whole row. -/
theorem emb4 (t : Fin cfg0.N) (u : Fin 1) (h : Fin 64) :
    ((cfg0.win 4).blk t).view.emb (ix2 u h) = ix2 u h := by
  obtain ⟨-, -, -, -, -, -, -, -, e0, e1, -⟩ := idx_facts t
  funext a; apply Fin.ext
  match a with
  | ⟨0, _⟩ => show win0_4.index t (0 : Fin 2) * 1 + 1 * u.val = u.val; rw [e0]; omega
  | ⟨1, _⟩ => show win0_4.index t (1 : Fin 2) * 64 + 1 * h.val = h.val; rw [e1]; omega

/-- The second-layer matrix's one block is the whole matrix. -/
theorem emb5 (t : Fin cfg0.N) (h : Fin 64) (f : Fin 64) :
    ((cfg0.win 5).blk t).view.emb (ix2 h f) = ix2 h f := by
  obtain ⟨-, -, -, -, -, -, -, -, -, -, e0, e1, -⟩ := idx_facts t
  funext a; apply Fin.ext
  match a with
  | ⟨0, _⟩ => show win0_5.index t (0 : Fin 2) * 64 + 1 * h.val = h.val; rw [e0]; omega
  | ⟨1, _⟩ => show win0_5.index t (1 : Fin 2) * 64 + 1 * f.val = f.val; rw [e1]; omega

/-- The second bias row's one block is the whole row. -/
theorem emb6 (t : Fin cfg0.N) (u : Fin 1) (f : Fin 64) :
    ((cfg0.win 6).blk t).view.emb (ix2 u f) = ix2 u f := by
  obtain ⟨-, -, -, -, -, -, -, -, -, -, -, -, e0, e1, -⟩ := idx_facts t
  funext a; apply Fin.ext
  match a with
  | ⟨0, _⟩ => show win0_6.index t (0 : Fin 2) * 1 + 1 * u.val = u.val; rw [e0]; omega
  | ⟨1, _⟩ => show win0_6.index t (1 : Fin 2) * 64 + 1 * f.val = f.val; rw [e1]; omega

theorem read1 (c : Dev nD) (t : Fin cfg0.N) (r : Fin 8192) (k : Fin 64) :
    iblk m c 1 t (ix2 r k) = V m c main_arg1 (ix2 (rowAt t r) k) := by
  show V m c main_arg1 (((cfg0.win 1).blk t).view.emb (ix2 r k)) = _
  rw [emb1]

theorem read2 (c : Dev nD) (t : Fin cfg0.N) (r : Fin 8192) (k : Fin 64) :
    iblk m c 2 t (ix2 r k) = V m c main_arg2 (ix2 (rowAt t r) k) := by
  show V m c main_arg2 (((cfg0.win 2).blk t).view.emb (ix2 r k)) = _
  rw [emb2]

theorem read3 (c : Dev nD) (t : Fin cfg0.N) (j : Fin 192) (h : Fin 64) :
    iblk m c 3 t (ix2 j h) = V m c main_arg5 (ix2 j h) := by
  show V m c main_arg5 (((cfg0.win 3).blk t).view.emb (ix2 j h)) = _
  rw [emb3]

theorem read4 (c : Dev nD) (t : Fin cfg0.N) (u : Fin 1) (h : Fin 64) :
    iblk m c 4 t (ix2 u h) = V m c main_v0 (ix2 u h) := by
  show V m c main_v0 (((cfg0.win 4).blk t).view.emb (ix2 u h)) = _
  rw [emb4]

theorem read5 (c : Dev nD) (t : Fin cfg0.N) (h : Fin 64) (f : Fin 64) :
    iblk m c 5 t (ix2 h f) = V m c main_arg7 (ix2 h f) := by
  show V m c main_arg7 (((cfg0.win 5).blk t).view.emb (ix2 h f)) = _
  rw [emb5]

theorem read6 (c : Dev nD) (t : Fin cfg0.N) (u : Fin 1) (f : Fin 64) :
    iblk m c 6 t (ix2 u f) = V m c main_v1 (ix2 u f) := by
  show V m c main_v1 (((cfg0.win 6).blk t).view.emb (ix2 u f)) = _
  rw [emb6]

/-! ## The three row blocks of the first-layer matrix, as the body loads them -/

theorem ld_run0 (x3 : Vec Ideal S192x64 .f32) (k h : Fin 64) : View.ld x3 r0_1 (ix2 k h) = x3 (ix2 (run0 k) h) :=
  congrArg x3 (funext fun a => Fin.ext (by
    match a with
    | ⟨0, _⟩ => show 0 + 1 * k.val = k.val; omega
    | ⟨1, _⟩ => show 0 + 1 * h.val = h.val; omega))

theorem ld_run1 (x3 : Vec Ideal S192x64 .f32) (k h : Fin 64) : View.ld x3 r0_2 (ix2 k h) = x3 (ix2 (run1 k) h) :=
  congrArg x3 (funext fun a => Fin.ext (by
    match a with
    | ⟨0, _⟩ => show 64 + 1 * k.val = 64 + k.val; omega
    | ⟨1, _⟩ => show 0 + 1 * h.val = h.val; omega))

theorem ld_run2 (x3 : Vec Ideal S192x64 .f32) (k h : Fin 64) : View.ld x3 r0_3 (ix2 k h) = x3 (ix2 (run2 k) h) :=
  congrArg x3 (funext fun a => Fin.ext (by
    match a with
    | ⟨0, _⟩ => show 128 + 1 * k.val = 128 + k.val; omega
    | ⟨1, _⟩ => show 0 + 1 * h.val = h.val; omega))

/-- Entry `(r, f)` of the block the body stores, from the blocks it holds: the first layer's three weight blocks are the
    three runs of 64 rows of the one first-layer block. -/
theorem stored_apply (x0 x1 x2 : Vec Ideal S8192x64 .f32) (x3 : Vec Ideal S192x64 .f32) (x4 : Vec Ideal S1x64 .f32)
    (x5 : Vec Ideal S64x64 .f32) (x6 : Vec Ideal S1x64 .f32) (r : Fin 8192) (f : Fin 64) :
    k0_pay1 (F := Ideal) x0 x1 x2 (View.ld x3 r0_1) (View.ld x3 r0_2) (View.ld x3 r0_3) x4 x5 x6 (ix2 r f)
      = out (fun k => x0 (ix2 r k)) (fun k => x1 (ix2 r k)) (fun k => x2 (ix2 r k))
          (fun k h => x3 (ix2 (run0 k) h)) (fun k h => x3 (ix2 (run1 k) h)) (fun k h => x3 (ix2 (run2 k) h))
          (fun h => x4 (ix2 (0 : Fin 1) h)) (Ideal.ofBits .f32 0x00000000#32) (fun h f => x5 (ix2 h f))
          (fun f => x6 (ix2 (0 : Fin 1) f)) f := by
  refine (BodyRows.payload_apply x0 x1 x2 (View.ld x3 r0_1) (View.ld x3 r0_2) (View.ld x3 r0_3) x4 x5 x6 r f).trans ?_
  have hA : (fun k h : Fin 64 => View.ld x3 r0_1 (ix2 k h)) = fun k h => x3 (ix2 (run0 k) h) :=
    funext fun k => funext fun h => ld_run0 x3 k h
  have hB : (fun k h : Fin 64 => View.ld x3 r0_2 (ix2 k h)) = fun k h => x3 (ix2 (run1 k) h) :=
    funext fun k => funext fun h => ld_run1 x3 k h
  have hC : (fun k h : Fin 64 => View.ld x3 r0_3 (ix2 k h)) = fun k h => x3 (ix2 (run2 k) h) :=
    funext fun k => funext fun h => ld_run2 x3 k h
  show out _ _ _ (fun k h : Fin 64 => View.ld x3 r0_1 (ix2 k h)) (fun k h : Fin 64 => View.ld x3 r0_2 (ix2 k h))
      (fun k h : Fin 64 => View.ld x3 r0_3 (ix2 k h)) _ _ _ _ _ = _
  rw [hA, hB, hC]

/-! ## The bias rows the grid finds: the bias vectors with a leading axis of extent one -/

theorem bias1_row (c : Dev nD) :
    (V m c main_v0 : S1x64.Idx → Elt Ideal .f32) = shapeCast S1x64 (m ((c : Thread nD τ).loc main_arg6)) shapeCasts_S64_S1x64 := by
  dsimp only [Gen.V, Gen.hostOps0]; after_results; rfl

theorem bias2_row (c : Dev nD) :
    (V m c main_v1 : S1x64.Idx → Elt Ideal .f32) = shapeCast S1x64 (m ((c : Thread nD τ).loc main_arg8)) shapeCasts_S64_S1x64 := by
  dsimp only [Gen.V, Gen.hostOps0]; after_results; rfl

/-! ## What a point writes back -/

/-- What point `t` writes back is block `t` of the table of edges over the arrays as the grid finds them. -/
theorem flushed_eq (c : Dev nD) (t : Fin cfg0.N) :
    (dats m 0 c).flushed 7 t = ((cfg0.win 7).blk t).view.read (Elt Ideal)
      (tableRows (V m c main_arg0) (V m c main_arg1) (V m c main_arg2) (V m c main_arg5) (V m c main_v0) (V m c main_arg7) (V m c main_v1)) := by
  rw [Value.flushed7]
  unfold out0_7
  rw [View.canon_unit_zero zeros]
  simp only [View.ld_unit_zero (S := S8192x64) zeros, View.ld_unit_zero (S := S1x64) zeros, View.ld_unit_zero (S := S64x64) zeros]
  funext j
  obtain ⟨r, f, rfl⟩ : ∃ (r : Fin 8192) (f : Fin 64), j = ix2 r f := ⟨j 0, j 1, eq_ix2 j⟩
  show k0_pay1 (F := Ideal) (iblk m c 0 t) (iblk m c 1 t) (iblk m c 2 t) (View.ld (iblk m c 3 t) r0_1) (View.ld (iblk m c 3 t) r0_2)
      (View.ld (iblk m c 3 t) r0_3) (iblk m c 4 t) (iblk m c 5 t) (iblk m c 6 t) (ix2 r f)
    = tableRows (V m c main_arg0) (V m c main_arg1) (V m c main_arg2) (V m c main_arg5) (V m c main_v0) (V m c main_arg7) (V m c main_v1)
        (((cfg0.win 7).blk t).view.emb (ix2 r f))
  rw [emb7]
  refine (stored_apply (iblk m c 0 t) (iblk m c 1 t) (iblk m c 2 t) (iblk m c 3 t) (iblk m c 4 t) (iblk m c 5 t) (iblk m c 6 t) r f).trans ?_
  unfold tableRows
  rw [tableAt_apply]
  unfold table
  simp only [read0, read1, read2, read3, read4, read5, read6]

/-! ## The blocks cover the result -/

/-- An index of the result is in point `t`'s block iff each coordinate is in the block's range on its axis. -/
theorem mem_blk (t : Fin cfg0.N) (i : S1048576x64.Idx) :
    i ∈ ((cfg0.win 7).blk t).view.set ↔ ∀ a : Fin 2, win0_7.index t a * S8192x64.size a ≤ (i a).val
      ∧ (i a).val < win0_7.index t a * S8192x64.size a + S8192x64.size a := by
  show i ∈ ((View.whole main_v2).slice (win0_7.rect t)).set ↔ _
  rw [View.set_slice_whole, Rect.mem_set_unit]
  exact Iff.rfl

/-- Row `p` of the result lies in the block of point `p / 8192`. -/
theorem cover (i : S1048576x64.Idx) : ∃ t : Fin cfg0.N, (cfg0.win 7).flush t = true ∧ i ∈ ((cfg0.win 7).blk t).view.set := by
  have hi0 : (i 0).val < 1048576 := idx2_lt0 i
  have hi1 : (i 1).val < 64 := idx2_lt1 i
  have hN : (i 0).val / 8192 < cfg0.N := by show _ < grid0.N; rw [N_0]; omega
  obtain ⟨-, -, -, -, -, -, -, -, -, -, -, -, -, -, e0, e1⟩ := idx_facts ⟨(i 0).val / 8192, hN⟩
  refine ⟨⟨(i 0).val / 8192, hN⟩, flush0_7 _, ?_⟩
  rw [mem_blk]
  intro a
  match a with
  | ⟨0, _⟩ =>
    show win0_7.index ⟨(i 0).val / 8192, hN⟩ (0 : Fin 2) * 8192 ≤ (i 0).val
      ∧ (i 0).val < win0_7.index ⟨(i 0).val / 8192, hN⟩ (0 : Fin 2) * 8192 + 8192
    rw [e0]; show (i 0).val / 8192 * 8192 ≤ (i 0).val ∧ (i 0).val < (i 0).val / 8192 * 8192 + 8192; omega
  | ⟨1, _⟩ =>
    show win0_7.index ⟨(i 0).val / 8192, hN⟩ (1 : Fin 2) * 64 ≤ (i 1).val
      ∧ (i 1).val < win0_7.index ⟨(i 0).val / 8192, hN⟩ (1 : Fin 2) * 64 + 64
    rw [e1]; omega

/-! ## The result array after the run -/

/-- The table of edges over the arguments as launched. -/
def result (c : Dev nD) : S1048576x64.Idx → EReal :=
  tableAt (m ((c : Thread nD τ).loc main_arg0)) (m ((c : Thread nD τ).loc main_arg1)) (m ((c : Thread nD τ).loc main_arg2))
    (m ((c : Thread nD τ).loc main_arg5)) (fun h => m ((c : Thread nD τ).loc main_arg6) (ix1 h))
    (m ((c : Thread nD τ).loc main_arg7)) (fun f => m ((c : Thread nD τ).loc main_arg8) (ix1 f))

/-- The arrays the grid finds are the arguments as launched, the bias rows the bias vectors entry for entry. -/
theorem tableRows_eq (c : Dev nD) :
    tableRows (V m c main_arg0) (V m c main_arg1) (V m c main_arg2) (V m c main_arg5) (V m c main_v0) (V m c main_arg7) (V m c main_v1)
      = result m c := by
  unfold tableRows result
  rw [V_main_arg0, V_main_arg1, V_main_arg2, V_main_arg5, V_main_arg7, bias1_row, bias2_row]
  simp only [shapeCast_a_1a_apply]

/-- After the grid the result array is the table of edges. -/
theorem final (c : Dev nD) : (dats m 0 c).arrAt 7 cfg0.N = result m c :=
  ((dats m 0 c).arrAt_eq_of_cover 7 _ (fun t _ => flushed_eq m c t) cover).trans (tableRows_eq m c)

/-- The kernel's run: it ends, nothing faults, the result array is the table of edges, the arguments are unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Blocks

end
-- ==== Proof.LibConcatThree.lean ====
/-
  Three pieces of one shape laid side by side, read at an index.

  Three `[n, a]` matrices joined along their columns make an `[n, c]` matrix whose column `g·a + q` (with `q < a`) is
  column `q` of piece `g`; three `[a]` vectors joined end to end make a `[c]` vector whose entry `g·a + q` is entry `q`
  of piece `g`. (Here `c` is whatever extent the concatenation was formed with: three times `a`.)
-/
import Idealize.ShloMosaic.Lib.Pipeline.Value
import Idealize.ShloMosaic.Lib.ValueIdx

noncomputable section

namespace Idealize.ShloMosaic.ConcatThree

open Idealize.ShloMosaic Idealize.ShloMosaic.ValueIdx

variable {α : Type}

/-- Three `[n, a]` matrices joined along the columns, read at row `r` and column `j = g·a + q`: piece `g` at `(r, q)`. -/
theorem cols_apply {n a c : ℕ} (x0 x1 x2 : (⟨2, ![n, a]⟩ : Shape).Idx → α)
    (h : Shape.Concatenates (([⟨⟨2, ![n, a]⟩, x0⟩, ⟨⟨2, ![n, a]⟩, x1⟩, ⟨⟨2, ![n, a]⟩, x2⟩] :
      List ((s : Shape) × (s.Idx → α))).map (·.1)) ⟨2, ![n, c]⟩ 1)
    (r : Fin n) (g : Fin 3) (q : Fin a) (j : Fin c) (hj : j.val = g.val * a + q.val) :
    concatenate ⟨2, ![n, c]⟩ 1 [⟨⟨2, ![n, a]⟩, x0⟩, ⟨⟨2, ![n, a]⟩, x1⟩, ⟨⟨2, ![n, a]⟩, x2⟩] h (ix2 r j)
      = (![x0, x1, x2] g) (ix2 r q) := by
  have hoff : ∀ b : Fin (⟨2, ![n, a]⟩ : Shape).rank, b.cast rfl ≠ (1 : Fin 2) →
      ((ix2 r q : (⟨2, ![n, a]⟩ : Shape).Idx) b).val = ((ix2 r j : (⟨2, ![n, c]⟩ : Shape).Idx) (b.cast rfl)).val := by
    intro b hb
    match b with
    | ⟨0, _⟩ => rfl
    | ⟨1, _⟩ => exact absurd rfl hb
  match g with
  | ⟨0, _⟩ =>
    exact concatenate_apply_piece 1 _ h (ix2 r j) 0 (by show 0 < 3; omega) ⟨2, ![n, a]⟩ x0 rfl rfl 0 rfl (ix2 r q) hoff
      (by show 0 + q.val = j.val; rw [hj]; simp)
  | ⟨1, _⟩ =>
    exact concatenate_apply_piece 1 _ h (ix2 r j) 1 (by show 1 < 3; omega) ⟨2, ![n, a]⟩ x1 rfl rfl (a + 0) rfl (ix2 r q) hoff
      (by show a + 0 + q.val = j.val; rw [hj]; simp)
  | ⟨2, _⟩ =>
    exact concatenate_apply_piece 1 _ h (ix2 r j) 2 (by show 2 < 3; omega) ⟨2, ![n, a]⟩ x2 rfl rfl (a + (a + 0)) rfl (ix2 r q) hoff
      (by show a + (a + 0) + q.val = j.val; rw [hj]; simp; omega)

/-- Three `[a]` vectors joined end to end, read at `j = g·a + q`: piece `g` at `q`. -/
theorem vec_apply {a c : ℕ} (x0 x1 x2 : (⟨1, ![a]⟩ : Shape).Idx → α)
    (h : Shape.Concatenates (([⟨⟨1, ![a]⟩, x0⟩, ⟨⟨1, ![a]⟩, x1⟩, ⟨⟨1, ![a]⟩, x2⟩] :
      List ((s : Shape) × (s.Idx → α))).map (·.1)) ⟨1, ![c]⟩ 0)
    (g : Fin 3) (q : Fin a) (j : Fin c) (hj : j.val = g.val * a + q.val) :
    concatenate ⟨1, ![c]⟩ 0 [⟨⟨1, ![a]⟩, x0⟩, ⟨⟨1, ![a]⟩, x1⟩, ⟨⟨1, ![a]⟩, x2⟩] h (ix1 j)
      = (![x0, x1, x2] g) (ix1 q) := by
  have hoff : ∀ b : Fin (⟨1, ![a]⟩ : Shape).rank, b.cast rfl ≠ (0 : Fin 1) →
      ((ix1 q : (⟨1, ![a]⟩ : Shape).Idx) b).val = ((ix1 j : (⟨1, ![c]⟩ : Shape).Idx) (b.cast rfl)).val := by
    intro b hb
    match b with
    | ⟨0, _⟩ => exact absurd rfl hb
  match g with
  | ⟨0, _⟩ =>
    exact concatenate_apply_piece 0 _ h (ix1 j) 0 (by show 0 < 3; omega) ⟨1, ![a]⟩ x0 rfl rfl 0 rfl (ix1 q) hoff
      (by show 0 + q.val = j.val; rw [hj]; simp)
  | ⟨1, _⟩ =>
    exact concatenate_apply_piece 0 _ h (ix1 j) 1 (by show 1 < 3; omega) ⟨1, ![a]⟩ x1 rfl rfl (a + 0) rfl (ix1 q) hoff
      (by show a + 0 + q.val = j.val; rw [hj]; simp)
  | ⟨2, _⟩ =>
    exact concatenate_apply_piece 0 _ h (ix1 j) 2 (by show 2 < 3; omega) ⟨1, ![a]⟩ x2 rfl rfl (a + (a + 0)) rfl (ix1 q) hoff
      (by show a + (a + 0) + q.val = j.val; rw [hj]; simp; omega)

end Idealize.ShloMosaic.ConcatThree

end
-- ==== Proof.RefRows.lean ====
/-
  The reference program's result, entry by entry.

  The reference joins the three feature arrays along their columns into rows of 192 entries, multiplies by the whole
  first-layer matrix, adds the bias, rectifies against zero, multiplies by the second-layer matrix and adds its bias.
  Read at row `p` and column `f` this is the joined spelling of one edge (`EdgeRows.outJoined`), whose joined row reads
  `src`, `dest`, `edge` on its three runs of 64 columns; by `EdgeRows.outJoined_eq` it is the entry of `EdgeRows.table`.
-/
import proofs.«140469_j7060926234898_2_alg».proof.Proof.Gen.ReferenceIdeal.Read
import proofs.«140469_j7060926234898_2_alg».proof.Proof.EdgeRows
import proofs.«140469_j7060926234898_2_alg».proof.Proof.LibConcatThree

noncomputable section

namespace Cert.ReferenceIdeal.RefRows

open Cert.ReferenceIdeal Cert.ReferenceIdeal.Gen Idealize.ShloMosaic Idealize.ShloMosaic.ValueIdx Cert.EdgeRows
open scoped BigOperators

variable (x0 x1 x2 : (⟨S1048576x64, .f32⟩ : BufTy).Contents (Elt Ideal)) (x5 : (⟨S192x64, .f32⟩ : BufTy).Contents (Elt Ideal))
  (x6 : (⟨S64, .f32⟩ : BufTy).Contents (Elt Ideal)) (x7 : (⟨S64x64, .f32⟩ : BufTy).Contents (Elt Ideal))
  (x8 : (⟨S64, .f32⟩ : BufTy).Contents (Elt Ideal))

/-! ## Where each matrix product and each broadcast reads its operands -/

theorem lidx1 (p : Fin 1048576) (h : Fin 64) (j : Fin 192) : Read.lidx_main_v1 (ix2 p h) j = ix2 p j :=
  funext fun a => Fin.ext (by match a with | ⟨0, _⟩ => rfl | ⟨1, _⟩ => rfl)

theorem ridx1 (p : Fin 1048576) (h : Fin 64) (j : Fin 192) : Read.ridx_main_v1 (ix2 p h) j = ix2 j h :=
  funext fun a => Fin.ext (by match a with | ⟨0, _⟩ => rfl | ⟨1, _⟩ => rfl)

theorem bias1 (p : Fin 1048576) (h : Fin 64) : Read.idx_main_v2 (Read.idx_main_v3 (ix2 p h)) = ix1 h :=
  funext fun a => Fin.ext (by match a with | ⟨0, _⟩ => rfl)

theorem lidx6 (p : Fin 1048576) (f : Fin 64) (h : Fin 64) : Read.lidx_main_v6 (ix2 p f) h = ix2 p h :=
  funext fun a => Fin.ext (by match a with | ⟨0, _⟩ => rfl | ⟨1, _⟩ => rfl)

theorem ridx6 (p : Fin 1048576) (f : Fin 64) (h : Fin 64) : Read.ridx_main_v6 (ix2 p f) h = ix2 h f :=
  funext fun a => Fin.ext (by match a with | ⟨0, _⟩ => rfl | ⟨1, _⟩ => rfl)

theorem bias2 (p : Fin 1048576) (f : Fin 64) : Read.idx_main_v7 (Read.idx_main_v8 (ix2 p f)) = ix1 f :=
  funext fun a => Fin.ext (by match a with | ⟨0, _⟩ => rfl)

/-! ## The joined row reads the three arrays on its three runs -/

theorem joined_run0 (p : Fin 1048576) (k : Fin 64) : Read.val_main_v0 (F := Ideal) x0 x1 x2 (ix2 p (run0 k)) = x0 (ix2 p k) :=
  ConcatThree.cols_apply x0 x1 x2 concatenates_S1048576x64_S1048576x64_S1048576x64_S1048576x192_d1 p 0 k (run0 k)
    (by show k.val = 0 * 64 + k.val; omega)

theorem joined_run1 (p : Fin 1048576) (k : Fin 64) : Read.val_main_v0 (F := Ideal) x0 x1 x2 (ix2 p (run1 k)) = x1 (ix2 p k) :=
  ConcatThree.cols_apply x0 x1 x2 concatenates_S1048576x64_S1048576x64_S1048576x64_S1048576x192_d1 p 1 k (run1 k)
    (by show 64 + k.val = 1 * 64 + k.val; omega)

theorem joined_run2 (p : Fin 1048576) (k : Fin 64) : Read.val_main_v0 (F := Ideal) x0 x1 x2 (ix2 p (run2 k)) = x2 (ix2 p k) :=
  ConcatThree.cols_apply x0 x1 x2 concatenates_S1048576x64_S1048576x64_S1048576x64_S1048576x192_d1 p 2 k (run2 k)
    (by show 128 + k.val = 2 * 64 + k.val; omega)

/-! ## The hidden layer and the result -/

/-- The rectified hidden unit `h` of edge `p`, in the joined spelling. -/
theorem hidden_apply (p : Fin 1048576) (h : Fin 64) :
    Read.val_main_v5 (F := Ideal) x0 x1 x2 x5 x6 (ix2 p h)
      = max (preJoined (fun j => Read.val_main_v0 (F := Ideal) x0 x1 x2 (ix2 p j)) (fun j h => x5 (ix2 j h)) (fun h => x6 (ix1 h)) h)
          (Ideal.ofBits .f32 0x00000000#32) := by
  rw [Read.val_main_v5_apply, Read.val_main_v4_apply, Read.val_main_v1_apply, Read.val_main_v3_apply, Read.val_main_v2_apply,
    Read.val_main_call0_v0_apply, Read.val_main_call0_cst_apply, bias1]
  simp only [lidx1, ridx1]
  rfl

/-- Entry `(p, f)` of the reference's result is entry `(p, f)` of the table of edges. -/
theorem result_apply (p : Fin 1048576) (f : Fin 64) :
    Read.val_main_v9 (F := Ideal) x0 x1 x2 x5 x6 x7 x8 (ix2 p f)
      = table x0 x1 x2 x5 (fun h => x6 (ix1 h)) x7 (fun f => x8 (ix1 f)) p f := by
  rw [Read.val_main_v9_apply, Read.val_main_v6_apply, Read.val_main_v8_apply, Read.val_main_v7_apply, bias2]
  simp only [lidx6, ridx6, hidden_apply]
  refine Eq.trans ?_ ((outJoined_eq (fun j => Read.val_main_v0 (F := Ideal) x0 x1 x2 (ix2 p j)) (fun j h => x5 (ix2 j h))
    (fun h => x6 (ix1 h)) (Ideal.ofBits .f32 0x00000000#32) (fun h f => x7 (ix2 h f)) (fun f => x8 (ix1 f)) f).trans ?_)
  · rfl
  · unfold table
    simp only [joined_run0, joined_run1, joined_run2]

/-- The reference's result is the table of edges. -/
theorem result_eq :
    Read.val_main_v9 (F := Ideal) x0 x1 x2 x5 x6 x7 x8 = tableAt x0 x1 x2 x5 (fun h => x6 (ix1 h)) x7 (fun f => x8 (ix1 f)) := by
  funext i
  obtain ⟨p, f, rfl⟩ : ∃ (p : Fin 1048576) (f : Fin 64), i = ix2 p f := ⟨i 0, i 1, eq_ix2 i⟩
  exact result_apply x0 x1 x2 x5 x6 x7 x8 p f

end Cert.ReferenceIdeal.RefRows

end
-- ==== Proof.lean ====
/-
  The edge model of a message-passing network, tiled over blocks of edges, against its plain form.

  Each of 1048576 edges carries three rows of 64 features (source, destination, edge attributes).  The plain form joins
  them into one row of 192, applies a linear layer to 64 hidden units, rectifies against zero, and applies a second linear
  layer of 64 outputs.  The kernel walks the edges in 128 blocks of 8192 rows; in a block it never forms the joined row:
  it multiplies each of the three feature blocks by its own run of 64 rows of the first-layer matrix, adding the bias
  after the first product, then rectifies and applies the second layer.  Its matrix products take their factors in a
  narrower float format, which on the extended reals is no change at all.

  On the extended reals both programs compute, for edge `p` and output `f`,
      sum over hidden units h of  max(first layer of edge p at h, 0) * W2(h, f)   +   b2(f),
  and their first layers differ only in how one sum of 192 products and a bias are grouped: the sum over 192 positions
  is the sum over its three runs of 64, and addition on the extended reals is commutative and associative
  (`EdgeRows.preJoined_eq`).  No cancellation is used, so the finiteness of the inputs is not needed.

  `EdgeRows` states one edge's output and the regrouping; `RefRows` reads the plain form's result entry by entry;
  `BodyRows` reads one entry of the block the kernel's body stores; `Blocks` shows the block a grid point writes is its
  block of rows of the table of edges and that the 128 blocks cover the result.  Here the two runs are set side by side.
-/
import proofs.«140469_j7060926234898_2_alg».proof.Defs
import proofs.«140469_j7060926234898_2_alg».proof.Proof.Gen.Kernel
import proofs.«140469_j7060926234898_2_alg».proof.Proof.Gen.Kernel.Skeleton
import proofs.«140469_j7060926234898_2_alg».proof.Proof.Gen.Kernel.Launch
import proofs.«140469_j7060926234898_2_alg».proof.Proof.Gen.Kernel.Points
import proofs.«140469_j7060926234898_2_alg».proof.Proof.Gen.Kernel.Frame
import proofs.«140469_j7060926234898_2_alg».proof.Proof.Gen.KernelIdeal
import proofs.«140469_j7060926234898_2_alg».proof.Proof.Gen.KernelIdeal.Skeleton
import proofs.«140469_j7060926234898_2_alg».proof.Proof.Gen.KernelIdeal.Launch
import proofs.«140469_j7060926234898_2_alg».proof.Proof.Gen.KernelIdeal.Points
import proofs.«140469_j7060926234898_2_alg».proof.Proof.Gen.KernelIdeal.Frame
import proofs.«140469_j7060926234898_2_alg».proof.Proof.Gen.ReferenceIdeal
import proofs.«140469_j7060926234898_2_alg».proof.Proof.Gen.Pre_finite_inputs
import proofs.«140469_j7060926234898_2_alg».proof.Proof.Gen.KernelIdeal.Value
import proofs.«140469_j7060926234898_2_alg».proof.Proof.Gen.ReferenceIdeal.Run
import proofs.«140469_j7060926234898_2_alg».proof.Proof.Gen.ReferenceIdeal.Read
import proofs.«140469_j7060926234898_2_alg».proof.Proof.Blocks
import proofs.«140469_j7060926234898_2_alg».proof.Proof.RefRows
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The plain form's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten to read it on the extended reals. -/
theorem preserves : Cert.preserves_Kernel_KernelIdeal := trivial

/-- From memories that agree on the arguments both programs end with the table of edges in their result. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefRows.result_eq]
  obtain ⟨h0, h1, h2, -, -, h5, h6, h7, h8⟩ := hagree c
  rw [h0, h1, h2, h5, h6, h7, h8]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
